-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x64x64 : Shape := ⟨4, ![4, 4, 64, 64]⟩
abbrev S_ : Shape := ⟨0, ![]⟩

class Facts : Prop where
  bcast_S_S4x4x64x64 : S_.BroadcastsInDim S4x4x64x64 (![] : Fin 0 → Fin S4x4x64x64.rank)
  reducesTo_S4x4x64x64_S_d0_1_2_3 : S4x4x64x64.ReducesTo [0, 1, 2, 3] S_
  h_S_ : 0 < S_.numel

variable [Facts]

def fn {F : FTy → Type} [FloatOps F] (main_arg0 : FVec F S4x4x64x64 .f32) (main_arg1 : FVec F S4x4x64x64 .f32) : IVec S_ 1 :=
  let main_v0 : FVec F S4x4x64x64 .f32 := Host.absf main_arg0
  let main_cst : FVec F S_ .f32 := constant S_ .f32 0x7F800000#32
  let main_v1 : FVec F S4x4x64x64 .f32 := broadcastInDim S4x4x64x64 ![] bcast_S_S4x4x64x64 main_cst
  let main_v2 : IVec S4x4x64x64 1 := cmpf .olt main_v0 main_v1
  let main_c : IVec S_ 1 := constantI S_ 1 1#1
  let main_v3 : IVec S_ 1 := (fun x v => Host.reduce IntOp.andi x v reducesTo_S4x4x64x64_S_d0_1_2_3 h_S_) main_v2 main_c
  let main_v4 : FVec F S4x4x64x64 .f32 := Host.absf main_arg1
  let main_cst_0 : FVec F S_ .f32 := constant S_ .f32 0x7F800000#32
  let main_v5 : FVec F S4x4x64x64 .f32 := broadcastInDim S4x4x64x64 ![] bcast_S_S4x4x64x64 main_cst_0
  let main_v6 : IVec S4x4x64x64 1 := cmpf .olt main_v4 main_v5
  let main_c_1 : IVec S_ 1 := constantI S_ 1 1#1
  let main_v7 : IVec S_ 1 := (fun x v => Host.reduce IntOp.andi x v reducesTo_S4x4x64x64_S_d0_1_2_3 h_S_) main_v6 main_c_1
  let main_v8 : IVec S_ 1 := andi main_v3 main_v7
  main_v8
-- ==== Kernel.lean ====
abbrev S4x4x64x64 : Shape := ⟨4, ![4, 4, 64, 64]⟩
abbrev S4x4x4096 : Shape := ⟨3, ![4, 4, 4096]⟩
abbrev S4x1x1 : Shape := ⟨3, ![4, 1, 1]⟩
abbrev S1x4x4096 : Shape := ⟨3, ![1, 4, 4096]⟩
abbrev S1x1x1 : Shape := ⟨3, ![1, 1, 1]⟩
abbrev S4x4096 : Shape := ⟨2, ![4, 4096]⟩
abbrev S4096 : Shape := ⟨1, ![4096]⟩
abbrev S1x4096 : Shape := ⟨2, ![1, 4096]⟩
abbrev S4x4 : Shape := ⟨2, ![4, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x4096, .f32⟩
  | .hbm, ⟨3, _⟩ => ⟨S4x4x4096, .f32⟩
  | .hbm, ⟨4, _⟩ => ⟨S4x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4x4096, .f32⟩
  | .local _ .vmem, ⟨1, _⟩ => ⟨S1x4x4096, .f32⟩
  | .local _ .vmem, ⟨2, _⟩ => ⟨S1x4x4096, .f32⟩
  | .local _ .vmem, ⟨3, _⟩ => ⟨S1x4x4096, .f32⟩
  | .local _ .vmem, ⟨4, _⟩ => ⟨S1x1x1, .f32⟩
  | .local _ .vmem, ⟨5, _⟩ => ⟨S1x1x1, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4x64x64_S4x4x4096 : S4x4x64x64.ShapeCasts S4x4x4096
  inb_S1x4x4096_S1x4x4096_0_0_0 : ∀ a, (![0, 0, 0] : Fin 3 → Nat) a + S1x4x4096.size a ≤ S1x4x4096.size a
  h_S1x4x4096 : 0 < S1x4x4096.numel
  shapeCasts_S1x4x4096_S4x4096 : S1x4x4096.ShapeCasts S4x4096
  reduces_S4x4096_S4096 : S4x4096.Reduces [0] S4096
  shapeCasts_S4096_S1x4096 : S4096.ShapeCasts S1x4096
  broadcasts_S1x4096_S4x4096 : S1x4096.Broadcasts S4x4096
  reduces_S4x4_S4 : S4x4.Reduces [1] S4
  shapeCasts_S4_S4x1 : S4.ShapeCasts S4x1
  reduces_S4x1_S1 : S4x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S4x1x1_S_d0_1_2 : S4x1x1.ReducesTo [0, 1, 2] S_
  h_S_ : 0 < S_.numel
  dot_S4x4096_S4x4096_S4x4_1_1_0_0_n_n_wf : DotDims.WF S4x4096 S4x4096 S4x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4096.size a ≤ S4x4x4096.size a
  hwx0_0 : ∀ i : grid0.Coords, EltTy.bits .f32 = 32 ∨ (Rect.block (s := S4x4x4096) S1x4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x4096.size a ≤ S4x4x4096.size a
  hwx0_1 : ∀ i : grid0.Coords, EltTy.bits .f32 = 32 ∨ (Rect.block (s := S4x4x4096) S1x4x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

def dot_S4x4096_S4x4096_S4x4_1_1_0_0_n_n : DotDims S4x4096 S4x4096 S4x4 where
  lhsContracting := [1]
  rhsContracting := [1]
  lhsNonContracting := [0]
  rhsNonContracting := [0]
  lhsBatch := []
  rhsBatch := []
  wf := dot_S4x4096_S4x4096_S4x4_1_1_0_0_n_n_wf

abbrev win0_0 : Pipeline.Window sig grid0 :=
  Pipeline.Window.ofSpec (Memref.whole main_v0) S1x4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4x64x64 : Shape := ⟨4, ![4, 4, 64, 64]⟩
abbrev S4x4x4096 : Shape := ⟨3, ![4, 4, 4096]⟩
abbrev S_ : Shape := ⟨0, ![]⟩
abbrev S4x4096 : Shape := ⟨2, ![4, 4096]⟩
abbrev S4x1x4096 : Shape := ⟨3, ![4, 1, 4096]⟩
abbrev S4x4096x4096 : Shape := ⟨3, ![4, 4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x4096, .f32⟩
  | .hbm, ⟨3, _⟩ => ⟨S4x4x4096, .f32⟩
  | .hbm, ⟨4, _⟩ => ⟨S_, .f32⟩
  | .hbm, ⟨5, _⟩ => ⟨S4x4096, .f32⟩
  | .hbm, ⟨6, _⟩ => ⟨S4x1x4096, .f32⟩
  | .hbm, ⟨7, _⟩ => ⟨S4x1x4096, .f32⟩
  | .hbm, ⟨8, _⟩ => ⟨S_, .f32⟩
  | .hbm, ⟨9, _⟩ => ⟨S4x1x4096, .f32⟩
  | .hbm, ⟨10, _⟩ => ⟨S4x1x4096, .f32⟩
  | .hbm, ⟨11, _⟩ => ⟨S4x4x4096, .f32⟩
  | .hbm, ⟨12, _⟩ => ⟨S4x4x4096, .f32⟩
  | .hbm, ⟨13, _⟩ => ⟨S4x4x4096, .f32⟩
  | .hbm, ⟨14, _⟩ => ⟨S4x4x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x4x4096, .f32⟩
  | .hbm, ⟨23, _⟩ => ⟨S4x4x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  shapeCasts_S4x4x64x64_S4x4x4096 : S4x4x64x64.ShapeCasts S4x4x4096
  reducesTo_S4x4x4096_S4x4096_d1 : S4x4x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x4x4096_0_1_2 : S4x1x4096.BroadcastsInDim S4x4x4096 (![0, 1, 2] : Fin 3 → Fin S4x4x4096.rank)
  reducesTo_S4x4096x4096_S_d0_1_2 : S4x4096x4096.ReducesTo [0, 1, 2] S_
  dot_S4x4x4096_S4x4x4096_S4x4096x4096_1_1_2_2_0_0_wf : DotDims.WF S4x4x4096 S4x4x4096 S4x4096x4096 [1] [1] [2] [2] [0] [0]

variable [Facts₀]

def dot_S4x4x4096_S4x4x4096_S4x4096x4096_1_1_2_2_0_0 : DotDims S4x4x4096 S4x4x4096 S4x4096x4096 where
  lhsContracting := [1]
  rhsContracting := [1]
  lhsNonContracting := [2]
  rhsNonContracting := [2]
  lhsBatch := [0]
  rhsBatch := [0]
  wf := dot_S4x4x4096_S4x4x4096_S4x4096x4096_1_1_2_2_0_0_wf

class Facts : Prop extends Facts₀ where

variable [Facts]
-- ==== Proof.GramSpec.lean ====
/-
  The per-image quantities of a cosine self-similarity loss, on the extended reals, for any finite index types of
  channels `ι` and positions `κ`.

  An image is a matrix `x : ι → κ → EReal`, one column per position.  Each column is scaled to unit Euclidean length,
  its length clamped from below by `e` (`unitCol`).  Two Gram matrices can be formed of a scaled matrix `u`: over the
  positions, `posGram u n m = ∑ k, u k n * u k m` (κ × κ), and over the channels, `chanGram u v c d = ∑ n, u c n * v d n`
  (ι × ι).  The loss of a pair of images `x`, `y` is the squared Frobenius distance of their two position Gram matrices
  (`refBatch`).  The same number is a combination of three squared Frobenius norms of ι × ι channel Gram matrices
  (`kerBatch`), because `‖UᵀU − VᵀV‖² = ‖UUᵀ‖² − 2‖UVᵀ‖² + ‖VVᵀ‖²` for real matrices; the factor two is a parameter here
  so that a program's own constant can be put in its place.
-/
import Idealize.ShloMosaic.PureOps.Ideal

noncomputable section

open scoped BigOperators

namespace Cert.GramLoss

open Idealize.ShloMosaic

variable {ι κ : Type} [Fintype ι] [Fintype κ]

/-- The Euclidean length of column `n`, clamped from below by `e`. -/
def clampNorm (e : EReal) (x : ι → κ → EReal) (n : κ) : EReal :=
  max (Ideal.sqrt (∑ k : ι, x k n * x k n)) e

/-- The matrix with every column divided by its clamped length. -/
def unitCol (e : EReal) (x : ι → κ → EReal) (c : ι) (n : κ) : EReal :=
  Ideal.div (x c n) (clampNorm e x n)

/-- The Gram matrix over the positions: the inner products of the columns. -/
def posGram (u : ι → κ → EReal) (n m : κ) : EReal := ∑ k : ι, u k n * u k m

/-- The (cross) Gram matrix over the channels: the inner products of the rows of `u` with the rows of `v`. -/
def chanGram (u v : ι → κ → EReal) (c d : ι) : EReal := ∑ n : κ, u c n * v d n

/-- The squared Frobenius distance of the two images' position Gram matrices. -/
def refBatch (e : EReal) (x y : ι → κ → EReal) : EReal :=
  ∑ n : κ, ∑ m : κ,
    (posGram (unitCol e x) n m - posGram (unitCol e y) n m) * (posGram (unitCol e x) n m - posGram (unitCol e y) n m)

/-- The same distance through the three channel Gram matrices: `‖G_xx‖² − two · ‖G_xy‖² + ‖G_yy‖²`, entry by entry. -/
def kerBatch (e two : EReal) (x y : ι → κ → EReal) : EReal :=
  ∑ c : ι, ∑ d : ι,
    (chanGram (unitCol e x) (unitCol e x) c d * chanGram (unitCol e x) (unitCol e x) c d
        - two * (chanGram (unitCol e x) (unitCol e y) c d * chanGram (unitCol e x) (unitCol e y) c d)
      + chanGram (unitCol e y) (unitCol e y) c d * chanGram (unitCol e y) (unitCol e y) c d)

end Cert.GramLoss

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.GramAlgebra.lean ====
/-
  The Gram identity of a cosine self-similarity loss, on the extended reals.

  For real matrices `U`, `V` with channels `ι` as rows and positions `κ` as columns,

      ‖UᵀU − VᵀV‖_F² = ‖UUᵀ‖_F² − 2 ‖UVᵀ‖_F² + ‖VVᵀ‖_F² ,

  because each of the three terms `⟨UᵀU, UᵀU⟩`, `⟨UᵀU, VᵀV⟩`, `⟨VᵀV, VᵀV⟩` of the expanded left side is a trace that
  can be read over the channels instead of over the positions:

      ∑ n m, (∑ c, f c n · f c m) · (∑ d, g d n · g d m) = ∑ c d, (∑ n, f c n · g d n) · (∑ m, f c m · g d m) .

  Both sides are the fourfold sum of `f c n · f c m · g d n · g d m`; only the order of the finite sums differs.

  On the extended reals distributivity fails at the infinities, so the identity is proved for matrices whose entries are
  real numbers.  With real entries and a positive clamp `ε`, every scaled entry `x c n / max ‖x · n‖ ε` is again a real
  number (the clamped length is at least `ε > 0`, so the division never meets zero), every sum and product formed of them
  is the coercion of the same real expression, and the identity is the real one under the coercion ℝ → EReal.

  Also here: the two 32-bit float words the program uses, the clamp `ε` (a positive normal number) and the factor `2`.
-/
import proofs.«146978_j5145370820963_2_alg».proof.Proof.GramSpec
import proofs.«146978_j5145370820963_2_alg».proof.Proof.LibAggregateLinear

noncomputable section

open scoped BigOperators

namespace Cert.GramLoss

open Idealize.ShloMosaic
open Idealize.ShloMosaic.AggregateLinear (coe_finset_sum)

/-! ### The identity over the real numbers -/

section Real

variable {ι κ : Type} [Fintype ι] [Fintype κ]

/-- A trace over the positions read over the channels: `⟨fᵀf, gᵀg⟩ = ‖f gᵀ‖²`.  Both sides are the fourfold sum of
    `f c n · f c m · g d n · g d m`. -/
theorem gram_swap (f g : ι → κ → ℝ) :
    ∑ n, ∑ m, (∑ c, f c n * f c m) * (∑ d, g d n * g d m)
      = ∑ c, ∑ d, (∑ n, f c n * g d n) * (∑ m, f c m * g d m) := by
  calc ∑ n, ∑ m, (∑ c, f c n * f c m) * (∑ d, g d n * g d m)
      = ∑ n, ∑ m, ∑ c, ∑ d, (f c n * f c m) * (g d n * g d m) := by
        simp only [Finset.sum_mul_sum]
    _ = ∑ n, ∑ c, ∑ m, ∑ d, (f c n * f c m) * (g d n * g d m) :=
        Finset.sum_congr rfl fun n _ => Finset.sum_comm
    _ = ∑ c, ∑ n, ∑ m, ∑ d, (f c n * f c m) * (g d n * g d m) := Finset.sum_comm
    _ = ∑ c, ∑ n, ∑ d, ∑ m, (f c n * f c m) * (g d n * g d m) :=
        Finset.sum_congr rfl fun c _ => Finset.sum_congr rfl fun n _ => Finset.sum_comm
    _ = ∑ c, ∑ d, ∑ n, ∑ m, (f c n * f c m) * (g d n * g d m) :=
        Finset.sum_congr rfl fun c _ => Finset.sum_comm
    _ = ∑ c, ∑ d, ∑ n, ∑ m, (f c n * g d n) * (f c m * g d m) :=
        Finset.sum_congr rfl fun c _ => Finset.sum_congr rfl fun d _ =>
          Finset.sum_congr rfl fun n _ => Finset.sum_congr rfl fun m _ => by ring
    _ = ∑ c, ∑ d, (∑ n, f c n * g d n) * (∑ m, f c m * g d m) := by
        simp only [Finset.sum_mul_sum]

/-- A double sum of `P − 2 Q + R` is the same combination of the three double sums. -/
theorem sum_sum_sub_two_mul_add {α β : Type} [Fintype α] [Fintype β] (P Q R : α → β → ℝ) :
    ∑ a, ∑ b, (P a b - 2 * Q a b + R a b)
      = (∑ a, ∑ b, P a b) - 2 * (∑ a, ∑ b, Q a b) + ∑ a, ∑ b, R a b := by
  simp only [Finset.sum_add_distrib, Finset.sum_sub_distrib, Finset.mul_sum]

/-- `‖UᵀU − VᵀV‖² = ‖UUᵀ‖² − 2 ‖UVᵀ‖² + ‖VVᵀ‖²`, entry by entry, over ℝ. -/
theorem gram_identity (u v : ι → κ → ℝ) :
    ∑ n, ∑ m, ((∑ k, u k n * u k m) - (∑ k, v k n * v k m)) * ((∑ k, u k n * u k m) - (∑ k, v k n * v k m))
      = ∑ c, ∑ d, ((∑ n, u c n * u d n) * (∑ n, u c n * u d n)
          - 2 * ((∑ n, u c n * v d n) * (∑ n, u c n * v d n))
          + (∑ n, v c n * v d n) * (∑ n, v c n * v d n)) := by
  have hL : ∑ n, ∑ m, ((∑ k, u k n * u k m) - (∑ k, v k n * v k m)) * ((∑ k, u k n * u k m) - (∑ k, v k n * v k m))
      = ∑ n, ∑ m, ((∑ c, u c n * u c m) * (∑ d, u d n * u d m)
          - 2 * ((∑ c, u c n * u c m) * (∑ d, v d n * v d m))
          + (∑ c, v c n * v c m) * (∑ d, v d n * v d m)) :=
    Finset.sum_congr rfl fun n _ => Finset.sum_congr rfl fun m _ => by ring
  rw [hL, sum_sum_sub_two_mul_add, sum_sum_sub_two_mul_add, gram_swap u u, gram_swap u v, gram_swap v v]

/-- The real matrix with every column divided by its Euclidean length, the length clamped from below by `ε`. -/
def unitColR (ε : ℝ) (X : ι → κ → ℝ) (c : ι) (n : κ) : ℝ :=
  X c n / max (Real.sqrt (∑ k, X k n * X k n)) ε

end Real

/-! ### Real entries stay real -/

section Coe

variable {ι κ : Type} [Fintype ι] [Fintype κ]

/-- Scaling a matrix of real numbers by its clamped column lengths, with a positive clamp, gives real numbers: the
    sum of squares is a nonnegative real, its square root a real, the clamped length a real that is at least `ε > 0`. -/
theorem unitCol_coe (ε : ℝ) (hε : 0 < ε) (X : ι → κ → ℝ) (c : ι) (n : κ) :
    unitCol (ε : EReal) (fun c n => (X c n : EReal)) c n = ((unitColR ε X c n : ℝ) : EReal) := by
  have hs : (∑ k : ι, ((X k n : ℝ) : EReal) * ((X k n : ℝ) : EReal)) = ((∑ k, X k n * X k n : ℝ) : EReal) := by
    rw [coe_finset_sum]
    exact Finset.sum_congr rfl fun k _ => (EReal.coe_mul _ _).symm
  have h0 : 0 ≤ ∑ k, X k n * X k n := Finset.sum_nonneg fun k _ => mul_self_nonneg _
  have hpos : 0 < max (Real.sqrt (∑ k, X k n * X k n)) ε := lt_max_of_lt_right hε
  show Ideal.div ((X c n : ℝ) : EReal)
      (max (Ideal.sqrt (∑ k : ι, ((X k n : ℝ) : EReal) * ((X k n : ℝ) : EReal))) (ε : EReal)) = _
  rw [hs, Ideal.sqrt_coe, if_neg (not_lt.mpr h0), ← EReal.coe_strictMono.monotone.map_max,
    Ideal.div_coe hpos.ne', ← EReal.coe_mul]
  exact congrArg (fun r : ℝ => (r : EReal)) (div_eq_mul_one_div _ _).symm

/-- The position Gram matrix of a matrix of real numbers. -/
theorem posGram_coe (u : ι → κ → ℝ) (n m : κ) :
    posGram (fun c n => (u c n : EReal)) n m = ((∑ k, u k n * u k m : ℝ) : EReal) := by
  show (∑ k : ι, ((u k n : ℝ) : EReal) * ((u k m : ℝ) : EReal)) = _
  rw [coe_finset_sum]
  exact Finset.sum_congr rfl fun k _ => (EReal.coe_mul _ _).symm

/-- The channel (cross) Gram matrix of two matrices of real numbers. -/
theorem chanGram_coe (u v : ι → κ → ℝ) (c d : ι) :
    chanGram (fun c n => (u c n : EReal)) (fun c n => (v c n : EReal)) c d = ((∑ n, u c n * v d n : ℝ) : EReal) := by
  show (∑ n : κ, ((u c n : ℝ) : EReal) * ((v d n : ℝ) : EReal)) = _
  rw [coe_finset_sum]
  exact Finset.sum_congr rfl fun n _ => (EReal.coe_mul _ _).symm

/-- THE TWO LOSSES AGREE on images of real numbers, for a positive real clamp and the factor two. -/
theorem refBatch_eq_kerBatch (ε : ℝ) (hε : 0 < ε) (x y : ι → κ → EReal)
    (hx : ∀ c n, ∃ r : ℝ, x c n = (r : EReal)) (hy : ∀ c n, ∃ r : ℝ, y c n = (r : EReal)) :
    refBatch (ε : EReal) x y = kerBatch (ε : EReal) ((2 : ℝ) : EReal) x y := by
  choose X hX using hx
  choose Y hY using hy
  obtain rfl : x = fun c n => (X c n : EReal) := funext fun c => funext fun n => hX c n
  obtain rfl : y = fun c n => (Y c n : EReal) := funext fun c => funext fun n => hY c n
  have hu : unitCol (ε : EReal) (fun c n => (X c n : EReal)) = fun c n => ((unitColR ε X c n : ℝ) : EReal) :=
    funext fun c => funext fun n => unitCol_coe ε hε X c n
  have hv : unitCol (ε : EReal) (fun c n => (Y c n : EReal)) = fun c n => ((unitColR ε Y c n : ℝ) : EReal) :=
    funext fun c => funext fun n => unitCol_coe ε hε Y c n
  unfold refBatch kerBatch
  rw [hu, hv]
  simp only [posGram_coe, chanGram_coe, ← EReal.coe_sub, ← EReal.coe_mul, ← EReal.coe_add, ← coe_finset_sum]
  exact congrArg (fun r : ℝ => (r : EReal)) (gram_identity (unitColR ε X) (unitColR ε Y))

end Coe

/-! ### The two float words -/

/-- The word `0x40000000`: sign `0`, exponent field `128`, fraction `0`, that is `2^23 · 2^(128 − 127 − 23) = 2`. -/
theorem two_word : Ideal.ofBits .f32 0x40000000#32 = ((2 : ℝ) : EReal) := by
  have h : (2 : ℝ) = ((2 ^ 23 + 0 : ℕ) : ℝ) * (2 : ℝ) ^ ((128 : ℤ) - 127 - 23) := by norm_num
  rw [h]
  simp [Ideal.ofBits, Ideal.ieee]

/-- The word `0x2B8CBCCC`: sign `0`, exponent field `87`, fraction `834764`, the positive normal number
    `(2^23 + 834764) · 2^(87 − 127 − 23)`. -/
theorem eps_word : ∃ ε : ℝ, 0 < ε ∧ Ideal.ofBits .f32 0x2B8CBCCC#32 = (ε : EReal) := by
  refine ⟨((2 ^ 23 + 834764 : ℕ) : ℝ) * (2 : ℝ) ^ ((87 : ℤ) - 127 - 23), by positivity, ?_⟩
  simp [Ideal.ofBits, Ideal.ieee]

end Cert.GramLoss

end
-- ==== Proof.LibSumIdx3.lean ====
/-
  A sum over a rank-3 index set, by coordinates.

  An index of the shape [n0, n1, n2] is a triple of coordinates, one below each extent, so the index set is in
  bijection with the product Fin n0 × Fin n1 × Fin n2 and a sum over it is the triple sum over the coordinates,
  the outermost coordinate first.  This is the rank-3 companion of the rank-2 statement
  (`ValueIdx.idxEquiv2`, `ValueIdx.sum_idx2`) and is proved the same way.
-/
import Idealize.ShloMosaic.Lib.ValueIdx

noncomputable section

open scoped BigOperators

namespace Idealize.ShloMosaic.ValueIdx3

open Idealize.ShloMosaic Idealize.ShloMosaic.ValueIdx

/-- A rank-3 index set is the product of its three coordinate ranges: an index goes to its coordinates, and a
    triple of coordinates to the index `ix3` builds from them … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in the order of the axes. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx3

end
-- ==== Proof.RefGram.lean ====
/-
  The reference program's result is the specification's function.

  The reference program scales every column of each of its two inputs (an array [4, 4, 4096]: image, channel,
  position) to unit Euclidean length, the length clamped from below by a small constant e; forms, image by image, the
  4096 × 4096 matrix of the inner products of the scaled columns; squares the entrywise difference of the two inputs'
  matrices; sums all the squares and divides by 2^26.

  Read one element at a time this is exactly the specification: the scaled array at (b, c, n) is `unitCol e` of image
  b at (c, n); the matrix of inner products at (b, n, m) is `posGram` of that at (n, m); the sum over all (b, n, m)
  of the squared differences is the sum over the images b of `refBatch`.  The reshape of the inputs from
  [4, 4, 64, 64] to [4, 4, 4096] is left as it is on both sides.  The initial value of each sum of the program is the
  number 0, which disappears.
-/
import proofs.«146978_j5145370820963_2_alg».proof.Proof.GramSpec
import proofs.«146978_j5145370820963_2_alg».proof.Proof.LibSumIdx3
import proofs.«146978_j5145370820963_2_alg».proof.Proof.Gen.ReferenceIdeal.Read
import Idealize.ShloMosaic.Lib.ValueIdx

noncomputable section
open scoped BigOperators
open Idealize.ShloMosaic Idealize.ShloMosaic.ValueIdx

namespace Cert.GramLoss.Ref
open Cert.ReferenceIdeal Cert.ReferenceIdeal.Read

/-- The clamp constant of the normalisation, about 1e-12. -/
local notation "ε₀" => Ideal.ofBits FTy.f32 0x2B8CBCCC#32

/-! ## The index functions of the layout operations, at an index given by its coordinates -/

/-- The left factor of entry (b, n, m) of the first matrix of inner products is read at (b, k, n) … -/
theorem lidx12 (b : Fin 4) (n m : Fin 4096) (k : Fin 4) : lidx_main_v12 (ix3 b n m) k = ix3 b k n :=
  funext fun a => Fin.ext (by match a with | ⟨0, _⟩ => rfl | ⟨1, _⟩ => rfl | ⟨2, _⟩ => rfl)
/-- … and the right factor at (b, k, m). -/
theorem ridx12 (b : Fin 4) (n m : Fin 4096) (k : Fin 4) : ridx_main_v12 (ix3 b n m) k = ix3 b k m :=
  funext fun a => Fin.ext (by match a with | ⟨0, _⟩ => rfl | ⟨1, _⟩ => rfl | ⟨2, _⟩ => rfl)
/-- The same for the second matrix of inner products. -/
theorem lidx13 (b : Fin 4) (n m : Fin 4096) (k : Fin 4) : lidx_main_v13 (ix3 b n m) k = ix3 b k n :=
  funext fun a => Fin.ext (by match a with | ⟨0, _⟩ => rfl | ⟨1, _⟩ => rfl | ⟨2, _⟩ => rfl)
theorem ridx13 (b : Fin 4) (n m : Fin 4096) (k : Fin 4) : ridx_main_v13 (ix3 b n m) k = ix3 b k m :=
  funext fun a => Fin.ext (by match a with | ⟨0, _⟩ => rfl | ⟨1, _⟩ => rfl | ⟨2, _⟩ => rfl)

/-- The clamped length, an array [4, 1, 4096], is broadcast along the channel axis: (b, c, n) reads (b, 0, n). -/
theorem idx4 (b c : Fin 4) (n : Fin 4096) : idx_main_v4 (ix3 b c n) = ix3 b (0 : Fin 1) n :=
  funext fun a => Fin.ext (by match a with | ⟨0, _⟩ => rfl | ⟨1, _⟩ => rfl | ⟨2, _⟩ => rfl)
theorem idx10 (b c : Fin 4) (n : Fin 4096) : idx_main_v10 (ix3 b c n) = ix3 b (0 : Fin 1) n :=
  funext fun a => Fin.ext (by match a with | ⟨0, _⟩ => rfl | ⟨1, _⟩ => rfl | ⟨2, _⟩ => rfl)

/-- The sum of squares, an array [4, 4096], gets a unit channel axis: (b, 0, n) reads (b, n). -/
theorem idxc0v2 (b : Fin 4) (n : Fin 4096) : idx_main_call0_v2 (ix3 b (0 : Fin 1) n) = ix2 b n :=
  funext fun a => Fin.ext (by match a with | ⟨0, _⟩ => rfl | ⟨1, _⟩ => rfl)
theorem idxc1v2 (b : Fin 4) (n : Fin 4096) : idx_main_call1_v2 (ix3 b (0 : Fin 1) n) = ix2 b n :=
  funext fun a => Fin.ext (by match a with | ⟨0, _⟩ => rfl | ⟨1, _⟩ => rfl)

/-- The sum over the channel axis: term k of entry (b, n) is read at (b, k, n). -/
theorem idxc0v1 (b : Fin 4) (n : Fin 4096) (k : Fin 4) : idx_main_call0_v1 (ix2 b n) k = ix3 b k n :=
  funext fun a => Fin.ext (by match a with | ⟨0, _⟩ => rfl | ⟨1, _⟩ => rfl | ⟨2, _⟩ => rfl)
theorem idxc1v1 (b : Fin 4) (n : Fin 4096) (k : Fin 4) : idx_main_call1_v1 (ix2 b n) k = ix3 b k n :=
  funext fun a => Fin.ext (by match a with | ⟨0, _⟩ => rfl | ⟨1, _⟩ => rfl | ⟨2, _⟩ => rfl)

/-! ## The scaled arrays -/

/-- The first input scaled, at (b, c, n): entry (c, n) of image b divided by the clamped length of column n. -/
theorem v5_unit (x0 : (⟨S4x4x64x64, .f32⟩ : BufTy).Contents (Elt Ideal)) (b c : Fin 4) (n : Fin 4096) :
    val_main_v5 (F := Ideal) x0 (ix3 b c n)
      = unitCol ε₀ (fun (c : Fin 4) (n : Fin 4096) => val_main_v0 (F := Ideal) x0 (ix3 b c n)) c n := by
  rw [val_main_v5_apply, val_main_v4_apply, idx4, val_main_v3_apply, val_main_v1_apply, val_main_call0_v2_apply,
    idxc0v2, val_main_call0_v1_apply, val_main_v2_apply, val_main_cst_apply, val_main_call0_cst_apply]
  simp only [idxc0v1, val_main_call0_v0_apply, Ideal.mulf_def, Ideal.maximumf_def, Ideal.hostDivf_def,
    Ideal.hostUnary_sqrt_def, Ideal.ofBits_def, Ideal.ofBits_zero_f32, zero_add]
  rfl

/-- The second input scaled, at (b, c, n). -/
theorem v11_unit (x1 : (⟨S4x4x64x64, .f32⟩ : BufTy).Contents (Elt Ideal)) (b c : Fin 4) (n : Fin 4096) :
    val_main_v11 (F := Ideal) x1 (ix3 b c n)
      = unitCol ε₀ (fun (c : Fin 4) (n : Fin 4096) => val_main_v6 (F := Ideal) x1 (ix3 b c n)) c n := by
  rw [val_main_v11_apply, val_main_v10_apply, idx10, val_main_v9_apply, val_main_v7_apply, val_main_call1_v2_apply,
    idxc1v2, val_main_call1_v1_apply, val_main_v8_apply, val_main_cst_0_apply, val_main_call1_cst_apply]
  simp only [idxc1v1, val_main_call1_v0_apply, Ideal.mulf_def, Ideal.maximumf_def, Ideal.hostDivf_def,
    Ideal.hostUnary_sqrt_def, Ideal.ofBits_def, Ideal.ofBits_zero_f32, zero_add]
  rfl

/-! ## The matrices of inner products -/

/-- Entry (b, n, m) of the first matrix is the inner product of the scaled columns n and m of image b. -/
theorem v12_gram (x0 : (⟨S4x4x64x64, .f32⟩ : BufTy).Contents (Elt Ideal)) (b : Fin 4) (n m : Fin 4096) :
    val_main_v12 (F := Ideal) x0 (ix3 b n m)
      = posGram (unitCol ε₀ (fun (c : Fin 4) (n : Fin 4096) => val_main_v0 (F := Ideal) x0 (ix3 b c n))) n m := by
  rw [val_main_v12_apply]
  unfold posGram
  refine Finset.sum_congr rfl fun k _ => ?_
  rw [lidx12, ridx12, v5_unit, v5_unit]

/-- The same for the second input. -/
theorem v13_gram (x1 : (⟨S4x4x64x64, .f32⟩ : BufTy).Contents (Elt Ideal)) (b : Fin 4) (n m : Fin 4096) :
    val_main_v13 (F := Ideal) x1 (ix3 b n m)
      = posGram (unitCol ε₀ (fun (c : Fin 4) (n : Fin 4096) => val_main_v6 (F := Ideal) x1 (ix3 b c n))) n m := by
  rw [val_main_v13_apply]
  unfold posGram
  refine Finset.sum_congr rfl fun k _ => ?_
  rw [lidx13, ridx13, v11_unit, v11_unit]

/-! ## The result -/

/-- The sum of all the squared differences is the sum over the images of the squared Frobenius distances. -/
theorem v16_sum (x0 x1 : (⟨S4x4x64x64, .f32⟩ : BufTy).Contents (Elt Ideal)) (i : S_.Idx) :
    val_main_v16 (F := Ideal) x0 x1 i
      = ∑ b : Fin 4, refBatch ε₀
          (fun (c : Fin 4) (n : Fin 4096) => val_main_v0 (F := Ideal) x0 (ix3 b c n))
          (fun (c : Fin 4) (n : Fin 4096) => val_main_v6 (F := Ideal) x1 (ix3 b c n)) := by
  rw [val_main_v16_apply, val_main_cst_1_apply, Ideal.ofBits_def, Ideal.ofBits_zero_f32, zero_add,
    ValueIdx3.sum_idx3]
  refine Finset.sum_congr rfl fun b _ => ?_
  unfold refBatch
  refine Finset.sum_congr rfl fun n _ => Finset.sum_congr rfl fun m _ => ?_
  rw [val_main_v15_apply, val_main_v14_apply, v12_gram, v13_gram, Ideal.mulf_def, Ideal.subf_def]

/-- The reference program's result: the sum over the four images of the squared Frobenius distance of the two
    inputs' matrices of inner products of unit columns, divided by 2^26. -/
theorem ref_value (x0 x1 : (⟨S4x4x64x64, .f32⟩ : BufTy).Contents (Elt Ideal)) (i : S_.Idx) :
    val_main_v17 (F := Ideal) x0 x1 i
      = Ideal.div (∑ b : Fin 4, refBatch (Ideal.ofBits .f32 0x2B8CBCCC#32)
            (fun (c : Fin 4) (n : Fin 4096) => val_main_v0 (F := Ideal) x0 (ix3 b c n))
            (fun (c : Fin 4) (n : Fin 4096) => val_main_v6 (F := Ideal) x1 (ix3 b c n)))
          (Ideal.ofBits .f32 0x4C800000#32) := by
  rw [val_main_v17_apply, v16_sum, val_main_cst_2_apply, Ideal.hostDivf_def, Ideal.ofBits_def]

end Cert.GramLoss.Ref

end
-- ==== Proof.FiniteInputs.lean ====
/-
  The precondition says every input entry is a real number.

  The precondition of the claim is the conjunction of two tests, one per input: "every entry has absolute value below
  plus infinity".  On the extended reals the absolute value of x is max x (−x), and the word 0x7F800000 denotes the
  top element, so the test at one entry says x < ⊤ and −x < ⊤, that is, x is neither of the two infinities: x is a
  real number.  A conjunction of bits is 1 exactly when both are; an "all" over an array (a reduction by "and" from
  the bit 1 into a single result) that came out 1 met the bit 1 at every entry.
-/
import proofs.«146978_j5145370820963_2_alg».proof.Proof.Gen.Pre_finite_inputs
import Idealize.ShloMosaic.Lib.ValueIdx
import Idealize.ShloMosaic.Lib.ReduceAll

namespace Cert.GramLoss.Finite
open Idealize.ShloMosaic

/-- The word 0x7F800000 is plus infinity. -/
theorem ofBits_inf : Ideal.ofBits .f32 0x7F800000#32 = (⊤ : EReal) := by simp [Ideal.ofBits, Ideal.ieee]

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  obtain ⟨h1, h2⟩ := max_lt_iff.1 hlt
  induction x using EReal.rec with
  | bot => exact absurd h2 (by simp)
  | coe r => exact ⟨r, rfl⟩
  | top => exact absurd h1 (lt_irrefl _)

/-- Under the precondition both inputs have real entries. -/
theorem real_of_pre [Cert.Pre_finite_inputs.Facts] (x0 x1 : FVec Ideal Cert.Pre_finite_inputs.S4x4x64x64 .f32)
    (h : Cert.Pre_finite_inputs.fn (F := Ideal) x0 x1 = fun _ => 1#1) :
    (∀ j, ∃ r : ℝ, x0 j = (r : EReal)) ∧ (∀ j, ∃ r : ℝ, x1 j = (r : EReal)) := by
  -- the scalar shape has one index
  haveI : Subsingleton Cert.Pre_finite_inputs.S_.Idx := ⟨fun a b => funext fun d => d.elim0⟩
  have h0 := congrFun h ValueIdx.ix0
  dsimp only [Cert.Pre_finite_inputs.fn] at h0
  change IntOp.andi _ _ = 1#1 at h0
  obtain ⟨ha, hb⟩ := IntOp.andi_eq_one.1 h0
  refine ⟨fun j => ?_, fun j => ?_⟩
  · exact real_of_abs_lt_inf (x0 j) (Host.reduce_andi_all _ _ _ _ _ ha j)
  · exact real_of_abs_lt_inf (x1 j) (Host.reduce_andi_all _ _ _ _ _ hb j)

end Cert.GramLoss.Finite
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibFirstAxis.lean ====
/-
  Reductions of a matrix along its FIRST axis, on the extended reals, for any sizes.

  Over a result index `q` (a column), the source index with coordinate `k` on the reduced axis is `(k, q)`; so a
  kernel's sum of an `[a, b]` matrix along axis 0 from the zero word is, at column `q`, the finite sum over the rows
  `k` of the entries `(k, q)`.  With `b = 1` this is the sum of a column vector `[a, 1]` into `[1]`.
-/
import Idealize.ShloMosaic.Lib.ValueIdx
import Idealize.ShloMosaic.PureOps.Ideal.Laws

noncomputable section

open scoped BigOperators

namespace Cert.Lib.FirstAxis

open Idealize.ShloMosaic Idealize.ShloMosaic.ValueIdx

/-- The source index over column `q` with row coordinate `k` is `(k, q)`. -/
theorem lift_first2 {a b : ℕ} (h : (⟨2, ![a, b]⟩ : Shape).Reduces [(0 : Fin 2)] ⟨1, ![b]⟩) (q : Fin b)
    (k : Fin ((⟨2, ![a, b]⟩ : Shape).size 0)) : h.lift (ix1 q) k = ix2 (k : Fin a) q := by
  funext c; apply Fin.ext; rw [h.lift_val]
  match c with
  | ⟨0, _⟩ => rfl
  | ⟨1, _⟩ => rfl

/-- A kernel's sum of a matrix along its first axis from the neutral word, at column `q`: the sum over the rows. -/
theorem laneSum_first2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_first2 h q k))

end Cert.Lib.FirstAxis

end
-- ==== Proof.KerPayload.lean ====
/-
  What the kernel's body stores, as a number.

  At one grid point the body reads two `[1, 4, 4096]` blocks `x0`, `x1` (one image each: 4 channels, 4096 positions)
  and stores one number.  It scales every column of each block to unit length with the clamp (`scaled`), takes the
  three 4 × 4 channel Gram matrices of the scaled blocks by contracting over the positions, combines them entry by
  entry as `G₀₀² − 2·G₀₁² + G₁₁²`, and sums the sixteen entries, rows first.  That is `GramLoss.kerBatch` of the two
  images.
-/
import proofs.«146978_j5145370820963_2_alg».proof.Proof.Gen.KernelIdeal.Skeleton
import proofs.«146978_j5145370820963_2_alg».proof.Proof.GramSpec
import proofs.«146978_j5145370820963_2_alg».proof.Proof.LibAttentionDots
import proofs.«146978_j5145370820963_2_alg».proof.Proof.LibLastAxis
import proofs.«146978_j5145370820963_2_alg».proof.Proof.LibKeepdimsColumn
import proofs.«146978_j5145370820963_2_alg».proof.Proof.LibFirstAxis
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GramLoss.Ker

open Cert.KernelIdeal Cert.KernelIdeal.Gen Idealize.ShloMosaic Idealize.ShloMosaic.ValueIdx
open Cert.GramLoss

/-- The clamp, as the programs spell it. -/
abbrev epsW : EReal := Ideal.ofBits .f32 0x2B8CBCCC#32
/-- The factor of the cross term, as the kernel spells it. -/
abbrev twoW : EReal := Ideal.ofBits .f32 0x40000000#32

/-- A `[4, 4096]` matrix with every column divided by its clamped length, as the body computes it: the squares summed
    along the channel axis, the root, the maximum with the clamp, the row broadcast back over the channels. -/
def scaled (v : FVec Ideal S4x4096 .f32) : FVec Ideal S4x4096 .f32 :=
  divf v (broadcastTo S4x4096 (maximumf (sqrt (shapeCast S1x4096 (multiReduction .add [0] S4096 (mulf v v) 0x00000000#32
    reduces_S4x4096_S4096 (.inl rfl) rfl) shapeCasts_S4096_S1x4096)) (broadcast S1x4096 (Scalar.ofBits .f32 0x2B8CBCCC#32)))
    broadcasts_S1x4096_S4x4096)

/-- Entry `(c, n)` of the scaled matrix is the specification's `unitCol` of the matrix read by coordinates. -/
theorem scaled_apply (v : FVec Ideal S4x4096 .f32) (c : Fin 4) (n : Fin 4096) :
    scaled v (ix2 c n) = unitCol epsW (fun c n => v (ix2 c n)) c n := by
  unfold scaled
  rw [divf_apply, broadcastTo_1b_ab_apply, maximumf_apply]
  show Ideal.div (v (ix2 c n)) (max (Ideal.sqrt (shapeCast S1x4096 _ shapeCasts_S4096_S1x4096 (ix2 (0 : Fin 1) n))) epsW) = _
  rw [shapeCast_a_1a_apply]
  exact congrArg (fun s => Ideal.div (v (ix2 c n)) (max (Ideal.sqrt s) epsW))
    (Cert.Lib.FirstAxis.laneSum_first2 (mulf v v) 0x00000000#32 reduces_S4x4096_S4096 (.inl rfl) rfl n)

/-- The inner products of the rows of `p` with the rows of `s`, over the positions: a 4 × 4 matrix. -/
def gram (p s : FVec Ideal S4x4096 .f32) (c d : Fin 4) : EReal := ∑ n : Fin 4096, p (ix2 c n) * s (ix2 d n)

/-- What the body does with the two scaled matrices: the three products contracting the positions, the entrywise
    combination `G_pp² − 2·G_ps² + G_ss²`, the sum of its sixteen entries (along each row, then down the column),
    laid out as a `[1, 1, 1]` block. -/
def combine (p s : FVec Ideal S4x4096 .f32) : FVec Ideal S1x1x1 .f32 :=
  shapeCast S1x1x1 (shapeCast S1x1 (multiReduction .add [0] S1 (shapeCast S4x1 (multiReduction .add [1] S4
    (addf (subf
        (mulf (matmul dot_S4x4096_S4x4096_S4x4_1_1_0_0_n_n (some .fp32) p p (constant S4x4 .f32 0x00000000#32))
          (matmul dot_S4x4096_S4x4096_S4x4_1_1_0_0_n_n (some .fp32) p p (constant S4x4 .f32 0x00000000#32)))
        (mulf (broadcast S4x4 (Scalar.ofBits .f32 0x40000000#32))
          (mulf (matmul dot_S4x4096_S4x4096_S4x4_1_1_0_0_n_n (some .fp32) p s (constant S4x4 .f32 0x00000000#32))
            (matmul dot_S4x4096_S4x4096_S4x4_1_1_0_0_n_n (some .fp32) p s (constant S4x4 .f32 0x00000000#32)))))
      (mulf (matmul dot_S4x4096_S4x4096_S4x4_1_1_0_0_n_n (some .fp32) s s (constant S4x4 .f32 0x00000000#32))
        (matmul dot_S4x4096_S4x4096_S4x4_1_1_0_0_n_n (some .fp32) s s (constant S4x4 .f32 0x00000000#32))))
    0x00000000#32 reduces_S4x4_S4 (.inl rfl) rfl) shapeCasts_S4_S4x1) 0x00000000#32 reduces_S4x1_S1 (.inl rfl) rfl)
    shapeCasts_S1_S1x1) shapeCasts_S1x1_S1x1x1

/-- The body's stored value is `combine` of the two scaled blocks, each block read as a `[4, 4096]` matrix. -/
theorem pay_eq (x0 x1 : Vec Ideal S1x4x4096 .f32) :
    k0_pay1 (F := Ideal) x0 x1 = combine (scaled (shapeCast S4x4096 x0 shapeCasts_S1x4x4096_S4x4096))
      (scaled (shapeCast S4x4096 x1 shapeCasts_S1x4x4096_S4x4096)) := rfl

/-- A product of the body contracting the positions, at `(c, d)`: the inner product of row `c` and row `d`. -/
theorem matmul_gram (p s : FVec Ideal S4x4096 .f32) (c d : Fin 4) :
    matmul dot_S4x4096_S4x4096_S4x4_1_1_0_0_n_n (some .fp32) p s (constant S4x4 .f32 0x00000000#32) (ix2 c d) = gram p s c d :=
  Cert.Lib.AttentionDots.matmul_zero_trhs dot_S4x4096_S4x4096_S4x4_1_1_0_0_n_n rfl rfl rfl rfl rfl rfl (some .fp32) p s c d

/-- The one entry of `combine`: the sum over the sixteen entries of the combined Gram matrices. -/
theorem combine_apply (p s : FVec Ideal S4x4096 .f32) :
    combine p s (ix3 (0 : Fin 1) (0 : Fin 1) (0 : Fin 1))
      = ∑ c : Fin 4, ∑ d : Fin 4,
          (gram p p c d * gram p p c d - twoW * (gram p s c d * gram p s c d) + gram s s c d * gram s s c d) := by
  unfold combine
  refine (shapeCast_ab_1ab_apply _ shapeCasts_S1x1_S1x1x1 0 0 0).trans ?_
  refine (shapeCast_a_1a_apply _ shapeCasts_S1_S1x1 0 0).trans ?_
  refine (Cert.Lib.FirstAxis.laneSum_first2 _ 0x00000000#32 reduces_S4x1_S1 (.inl rfl) rfl 0).trans ?_
  refine Finset.sum_congr rfl fun c _ => ?_
  refine (Cert.Lib.KeepdimsColumn.vecToCol_apply _ shapeCasts_S4_S4x1 c 0).trans ?_
  refine (Cert.Lib.LastAxis.laneSum_last2 _ 0x00000000#32 reduces_S4x4_S4 (.inl rfl) rfl c).trans ?_
  refine Finset.sum_congr rfl fun d _ => ?_
  show (matmul dot_S4x4096_S4x4096_S4x4_1_1_0_0_n_n (some .fp32) p p (constant S4x4 .f32 0x00000000#32) (ix2 c d)
        * matmul dot_S4x4096_S4x4096_S4x4_1_1_0_0_n_n (some .fp32) p p (constant S4x4 .f32 0x00000000#32) (ix2 c d)
      - twoW * (matmul dot_S4x4096_S4x4096_S4x4_1_1_0_0_n_n (some .fp32) p s (constant S4x4 .f32 0x00000000#32) (ix2 c d)
        * matmul dot_S4x4096_S4x4096_S4x4_1_1_0_0_n_n (some .fp32) p s (constant S4x4 .f32 0x00000000#32) (ix2 c d)))
      + matmul dot_S4x4096_S4x4096_S4x4_1_1_0_0_n_n (some .fp32) s s (constant S4x4 .f32 0x00000000#32) (ix2 c d)
        * matmul dot_S4x4096_S4x4096_S4x4_1_1_0_0_n_n (some .fp32) s s (constant S4x4 .f32 0x00000000#32) (ix2 c d) = _
  rw [matmul_gram, matmul_gram, matmul_gram]

/-- Over two blocks, the channel Gram entries of the scaled matrices are the specification's. -/
theorem gram_scaled (u w : Vec Ideal S1x4x4096 .f32) (c d : Fin 4) :
    gram (scaled (shapeCast S4x4096 u shapeCasts_S1x4x4096_S4x4096)) (scaled (shapeCast S4x4096 w shapeCasts_S1x4x4096_S4x4096)) c d
      = chanGram (unitCol epsW fun c n => u (ix3 (0 : Fin 1) c n)) (unitCol epsW fun c n => w (ix3 (0 : Fin 1) c n)) c d := by
  have hu : ∀ (z : Vec Ideal S1x4x4096 .f32), (fun (c : Fin 4) (n : Fin 4096) => shapeCast S4x4096 z shapeCasts_S1x4x4096_S4x4096 (ix2 c n))
      = fun c n => z (ix3 (0 : Fin 1) c n) :=
    fun z => funext fun c => funext fun n => shapeCast_1ab_ab_apply z shapeCasts_S1x4x4096_S4x4096 c n
  unfold gram chanGram
  refine Finset.sum_congr rfl fun n _ => ?_
  rw [scaled_apply, scaled_apply, hu u, hu w]

/-- THE STORED NUMBER: the specification's `kerBatch` of the two blocks read by coordinates. -/
theorem pay_apply (x0 x1 : Vec Ideal S1x4x4096 .f32) :
    k0_pay1 (F := Ideal) x0 x1 (ix3 (0 : Fin 1) (0 : Fin 1) (0 : Fin 1))
      = kerBatch epsW twoW (fun c n => x0 (ix3 (0 : Fin 1) c n)) (fun c n => x1 (ix3 (0 : Fin 1) c n)) := by
  rw [pay_eq, combine_apply]
  unfold kerBatch
  simp only [gram_scaled]

end Cert.GramLoss.Ker

end
-- ==== Proof.KerArray.lean ====
/-
  The array of per-image numbers the kernel's region leaves.

  The region's grid has one point per image.  Point `b` reads block `b` of each reshaped input — the image's
  `[4, 4096]` matrix — and writes the one number of block `b` of the output array `[4, 1, 1]`.  So after the region the
  output array holds, at `(b, 0, 0)`, the specification's `kerBatch` of image `b` of the two inputs.
-/
import proofs.«146978_j5145370820963_2_alg».proof.Proof.Gen.KernelIdeal.Frame
import proofs.«146978_j5145370820963_2_alg».proof.Proof.KerPayload
import Idealize.ShloMosaic.Lib.Pipeline.Value
import Idealize.ShloMosaic.Lib.StableHlo.Run

noncomputable section

open scoped BigOperators

namespace Cert.GramLoss.Ker

open Cert.KernelIdeal Cert.KernelIdeal.Gen Idealize.ShloMosaic Idealize.ShloMosaic.TcCoe Idealize.ShloMosaic.ValueIdx
open Idealize.SL.Sem
open Cert.GramLoss

variable (m : (ℓ : Loc nD τ sig) → Buf (Elt Ideal) ℓ) (ρ : Dev nD → PrngReg)

/-- The first input as launched, seen as four images of 4 channels × 4096 positions. -/
def img0 (c : Dev nD) : FVec Ideal S4x4x4096 .f32 :=
  shapeCast S4x4x4096 (m ((c : Thread nD τ).loc main_arg0)) shapeCasts_S4x4x64x64_S4x4x4096
/-- The second input as launched, seen the same way. -/
def img1 (c : Dev nD) : FVec Ideal S4x4x4096 .f32 :=
  shapeCast S4x4x4096 (m ((c : Thread nD τ).loc main_arg1)) shapeCasts_S4x4x64x64_S4x4x4096

/-- The array of per-image numbers: at `(b, ·, ·)` the specification's `kerBatch` of image `b` of `X0` and of `X1`. -/
def lossArr (X0 X1 : FVec Ideal S4x4x4096 .f32) : FVec Ideal S4x1x1 .f32 :=
  fun i => kerBatch epsW twoW (fun ch n => X0 (ix3 (i 0 : Fin 4) ch n)) (fun ch n => X1 (ix3 (i 0 : Fin 4) ch n))

theorem lossArr_apply (X0 X1 : FVec Ideal S4x4x4096 .f32) (b : Fin 4) :
    lossArr X0 X1 (ix3 b (0 : Fin 1) (0 : Fin 1))
      = kerBatch epsW twoW (fun ch n => X0 (ix3 b ch n)) (fun ch n => X1 (ix3 b ch n)) := rfl

/-! ## The index maps and the arrays the region finds -/

theorem hz3 : (![0, 0, 0] : Fin 3 → Nat) = fun _ => 0 := funext fun a => by fin_cases a <;> rfl

/-- Grid point `t` is image `t`. -/
def imgOf (t : Fin cfg0.N) : Fin 4 := ⟨t.val, by have h : t.val < grid0.N := t.isLt; rw [N_0] at h; exact h⟩

/-- The printed index maps, decided over the grid: at point `t` every window is on block `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The region finds the first reshaped input in window 0's array. -/
theorem V_main_v0 (c : Dev nD) : (V m c main_v0 : S4x4x4096.Idx → EReal) = img0 m c := by
  show StableHlo.after hostOps0 (fun b => m (c, b)) (Proc.devRef .tc main_v0) = _
  after_results
  rfl
/-- The region finds the second reshaped input in window 1's array. -/
theorem V_main_v1 (c : Dev nD) : (V m c main_v1 : S4x4x4096.Idx → EReal) = img1 m c := by
  show StableHlo.after hostOps0 (fun b => m (c, b)) (Proc.devRef .tc main_v1) = _
  after_results
  rfl

/-! ## The input blocks -/

/-- Window 0's block at point `t` is image `t` of the first input: entry `(0, ch, n)` of the block is entry
    `(t, ch, n)` of the array. -/
theorem iblk0_apply (c : Dev nD) (t : Fin cfg0.N) (ch : Fin 4) (n : Fin 4096) :
    (iblk m c 0 t : Vec Ideal S1x4x4096 .f32) (ix3 (0 : Fin 1) ch n) = img0 m c (ix3 (imgOf t) ch n) := by
  obtain ⟨e0, e1, e2, -⟩ := idx_facts t
  unfold iblk
  rw [View.read_apply]
  show V m c main_v0 (((cfg0.win 0).blk t).view.emb (ix3 (0 : Fin 1) ch n)) = _
  rw [V_main_v0]
  refine congrArg (img0 m c) ?_
  funext a; apply Fin.ext
  match a with
  | ⟨0, _⟩ => show win0_0.index t (0 : Fin 3) * 1 + 1 * 0 = t.val; omega
  | ⟨1, _⟩ => show win0_0.index t (1 : Fin 3) * 4 + 1 * ch.val = ch.val; omega
  | ⟨2, _⟩ => show win0_0.index t (2 : Fin 3) * 4096 + 1 * n.val = n.val; omega

/-- Window 1's block at point `t` is image `t` of the second input. -/
theorem iblk1_apply (c : Dev nD) (t : Fin cfg0.N) (ch : Fin 4) (n : Fin 4096) :
    (iblk m c 1 t : Vec Ideal S1x4x4096 .f32) (ix3 (0 : Fin 1) ch n) = img1 m c (ix3 (imgOf t) ch n) := by
  obtain ⟨-, -, -, e0, e1, e2, -⟩ := idx_facts t
  unfold iblk
  rw [View.read_apply]
  show V m c main_v1 (((cfg0.win 1).blk t).view.emb (ix3 (0 : Fin 1) ch n)) = _
  rw [V_main_v1]
  refine congrArg (img1 m c) ?_
  funext a; apply Fin.ext
  match a with
  | ⟨0, _⟩ => show win0_1.index t (0 : Fin 3) * 1 + 1 * 0 = t.val; omega
  | ⟨1, _⟩ => show win0_1.index t (1 : Fin 3) * 4 + 1 * ch.val = ch.val; omega
  | ⟨2, _⟩ => show win0_1.index t (2 : Fin 3) * 4096 + 1 * n.val = n.val; omega

/-! ## What a point writes back, and the cover -/

/-- WHAT POINT `t` WRITES BACK is block `t` of the array of per-image numbers. -/
theorem flushed2_eq (c : Dev nD) (t : Fin cfg0.N) :
    (dats m 0 c).flushed 2 t = ((cfg0.win 2).blk t).view.read (Elt Ideal) (lossArr (img0 m c) (img1 m c)) := by
  obtain ⟨-, -, -, -, -, -, e0, e1, e2⟩ := idx_facts t
  show (cfg0.win 2).cut (grid0.coords t) ((dats m 0 c).after 2 t) = _
  rw [after0_2]
  unfold out0_2
  rw [View.canon_unit_zero hz3]
  simp only [View.ld_unit_zero (S := S1x4x4096) hz3]
  funext j
  have hj : j = ix3 (0 : Fin 1) (0 : Fin 1) (0 : Fin 1) := by
    funext a; apply Fin.ext
    match a with
    | ⟨0, _⟩ => show (j 0).val = 0; have h : (j 0).val < 1 := (j 0).isLt; omega
    | ⟨1, _⟩ => show (j 1).val = 0; have h : (j 1).val < 1 := (j 1).isLt; omega
    | ⟨2, _⟩ => show (j 2).val = 0; have h : (j 2).val < 1 := (j 2).isLt; omega
  subst hj
  show k0_pay1 (iblk m c 0 t) (iblk m c 1 t) (ix3 (0 : Fin 1) (0 : Fin 1) (0 : Fin 1))
    = lossArr (img0 m c) (img1 m c) (((cfg0.win 2).blk t).view.emb (ix3 (0 : Fin 1) (0 : Fin 1) (0 : Fin 1)))
  have he : ((cfg0.win 2).blk t).view.emb (ix3 (0 : Fin 1) (0 : Fin 1) (0 : Fin 1)) = ix3 (imgOf t) (0 : Fin 1) (0 : Fin 1) := by
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 1 + 1 * 0 = 0; omega
  rw [he, lossArr_apply]
  refine (pay_apply (iblk m c 0 t) (iblk m c 1 t)).trans ?_
  have h0 : (fun (ch : Fin 4) (n : Fin 4096) => (iblk m c 0 t : Vec Ideal S1x4x4096 .f32) (ix3 (0 : Fin 1) ch n))
      = fun ch n => img0 m c (ix3 (imgOf t) ch n) := funext fun ch => funext fun n => iblk0_apply m c t ch n
  have h1 : (fun (ch : Fin 4) (n : Fin 4096) => (iblk m c 1 t : Vec Ideal S1x4x4096 .f32) (ix3 (0 : Fin 1) ch n))
      = fun ch n => img1 m c (ix3 (imgOf t) ch n) := funext fun ch => funext fun n => iblk1_apply m c t ch n
  rw [h0, h1]

/-- Every index `(b, 0, 0)` of the output array is in the block of point `b`. -/
theorem cover2 (i : S4x1x1.Idx) : ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 1 := (i 2).isLt
  have hlt : (i 0).val < cfg0.N := by show (i 0).val < grid0.N; rw [N_0]; exact hi0
  obtain ⟨-, -, -, -, -, -, e0, e1, e2⟩ := idx_facts ⟨(i 0).val, hlt⟩
  refine ⟨⟨(i 0).val, hlt⟩, flush0_2 _, ?_⟩
  show i ∈ ((View.whole main_v2).slice (win0_2.rect ⟨(i 0).val, hlt⟩)).set
  rw [View.set_slice_whole, Rect.mem_set_unit]
  intro a
  match a with
  | ⟨0, _⟩ =>
    show win0_2.index ⟨(i 0).val, hlt⟩ (0 : Fin 3) * 1 ≤ (i 0).val ∧ (i 0).val < win0_2.index ⟨(i 0).val, hlt⟩ (0 : Fin 3) * 1 + 1
    rw [e0]; show (i 0).val * 1 ≤ (i 0).val ∧ (i 0).val < (i 0).val * 1 + 1; omega
  | ⟨1, _⟩ =>
    show win0_2.index ⟨(i 0).val, hlt⟩ (1 : Fin 3) * 1 ≤ (i 1).val ∧ (i 1).val < win0_2.index ⟨(i 0).val, hlt⟩ (1 : Fin 3) * 1 + 1
    rw [e1]; omega
  | ⟨2, _⟩ =>
    show win0_2.index ⟨(i 0).val, hlt⟩ (2 : Fin 3) * 1 ≤ (i 2).val ∧ (i 2).val < win0_2.index ⟨(i 0).val, hlt⟩ (2 : Fin 3) * 1 + 1
    rw [e2]; omega

/-- THE OUTPUT ARRAY after the region: the per-image numbers of the two inputs as launched. -/
theorem final2 (c : Dev nD) : (dats m 0 c).arrAt 2 cfg0.N = lossArr (img0 m c) (img1 m c) :=
  (dats m 0 c).arrAt_eq_of_cover 2 (lossArr (img0 m c) (img1 m c)) (fun t _ => flushed2_eq m c t) (cover2)

end Cert.GramLoss.Ker

end
-- ==== Proof.KerTail.lean ====
/-
  The host operations after the kernel's region, read at the result's one index: the four per-image numbers are added
  up from zero and the total is divided by the normalising constant.
-/
import proofs.«146978_j5145370820963_2_alg».proof.Proof.Gen.KernelIdeal
import proofs.«146978_j5145370820963_2_alg».proof.Proof.LibSumIdx3
import Idealize.ShloMosaic.Lib.ValueIdx
import Idealize.ShloMosaic.PureOps.Ideal.Laws

noncomputable section

open scoped BigOperators

namespace Cert.GramLoss.Ker

open Cert.KernelIdeal Cert.KernelIdeal.Gen Idealize.ShloMosaic Idealize.ShloMosaic.ValueIdx

/-- The sum over all of a `[4, 1, 1]` array from zero, divided by the constant: the sum of its four entries over the
    constant. -/
theorem tail_apply (A : FVec Ideal S4x1x1 .f32) (i : S_.Idx) :
    Host.divf (F := Ideal) (Host.reduceAdd (F := Ideal) A (constant (F := Ideal) S_ .f32 0x00000000#32) reducesTo_S4x1x1_S_d0_1_2 h_S_)
        (constant (F := Ideal) S_ .f32 0x4C800000#32) i
      = Ideal.div (∑ b : Fin 4, A (ix3 b (0 : Fin 1) (0 : Fin 1))) (Ideal.ofBits .f32 0x4C800000#32) := by
  -- the host's sum into the rank-0 result: the initial value plus the sum over every index of the array
  have hsum : Host.reduceAdd (F := Ideal) A (constant (F := Ideal) S_ .f32 0x00000000#32)
        reducesTo_S4x1x1_S_d0_1_2 h_S_ i
      = ∑ b : Fin 4, A (ix3 b (0 : Fin 1) (0 : Fin 1)) := by
    show Ideal.hostReduceAdd reducesTo_S4x1x1_S_d0_1_2 A
        (constant (F := Ideal) S_ .f32 0x00000000#32 (Shape.Idx.first h_S_)) i = _
    rw [Ideal.hostReduceAdd_total reducesTo_S4x1x1_S_d0_1_2 (fun b => b.elim0) A _ i, constant_apply,
      Ideal.ofBits_zero_f32, zero_add]
    -- by coordinates; the second and third axes have one point each
    refine (ValueIdx3.sum_idx3 (n0 := 4) (n1 := 1) (n2 := 1) A).trans ?_
    refine Finset.sum_congr rfl fun b _ => ?_
    rw [Fin.sum_univ_one, Fin.sum_univ_one]
  -- the host's quotient at the index is the division of the two elements there
  show Ideal.div (Host.reduceAdd (F := Ideal) A (constant (F := Ideal) S_ .f32 0x00000000#32)
        reducesTo_S4x1x1_S_d0_1_2 h_S_ i) (constant (F := Ideal) S_ .f32 0x4C800000#32 i) = _
  rw [hsum, constant_apply]

end Cert.GramLoss.Ker

end
-- ==== Proof.KerRun.lean ====
/-
  The kernel program's run, read back as a number.

  The kernel program is one region between host operations.  The region's grid has one point per image; it leaves, in
  its output array [4, 1, 1], the per-image number of each of the four images of the two inputs as launched (the
  specification's `kerBatch`, with the program's own clamp constant and its own constant in the place of the factor
  two).  The host operations after the region add up the four entries from zero and divide the total by 2^26.  So when
  the program has run, its result buffer holds at its one index the sum of the four per-image numbers over 2^26.  No
  operation of the program writes an argument buffer, so both end as launched.
-/
import proofs.«146978_j5145370820963_2_alg».proof.Proof.KerArray
import proofs.«146978_j5145370820963_2_alg».proof.Proof.KerTail

noncomputable section
open scoped BigOperators

namespace Cert.GramLoss.Ker
open Cert.KernelIdeal Cert.KernelIdeal.Gen Idealize.ShloMosaic Idealize.ShloMosaic.TcCoe Idealize.ShloMosaic.ValueIdx
open Idealize.SL.Sem
open Cert.GramLoss

variable (m : (ℓ : Loc nD τ sig) → Buf (Elt Ideal) ℓ) (ρ : Dev nD → PrngReg)

/-- The result buffer after the host operations that follow the region: they add up the four entries of the region's
    output array from zero and divide the total by the constant; the output array holds the per-image numbers. -/
theorem tail_v4 (c : Dev nD) :
    Pipeline.afterTail₀ cfgs (dats m) 0 (V0 m) [hostOps1] c main_v4
      = (fun _ => Ideal.div (∑ b : Fin 4, kerBatch epsW twoW (fun ch n => img0 m c (ix3 b ch n)) (fun ch n => img1 m c (ix3 b ch n)))
            (Ideal.ofBits .f32 0x4C800000#32)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = lossArr (img0 m c) (img1 m c) :=
    (Pipeline.withArrays_arr spec0 launch0.win.arr_inj c _ _ 2).trans (final2 m c)
  rw [e]
  funext i
  rw [tail_apply]
  exact congrArg (fun s => Ideal.div s (Ideal.ofBits .f32 0x4C800000#32))
    (Finset.sum_congr rfl fun b _ => lossArr_apply (img0 m c) (img1 m c) b)

/-- THE KERNEL PROGRAM'S RUN: every weakly fair execution of @main terminates; the result buffer then holds, at its one
    index, the sum over the four images of `kerBatch` of the two inputs as launched, divided by 2^26, and the two
    argument buffers are as launched. -/
theorem ker_run : θ_run defs (onTc (τ := τ) (main (F := Ideal))) ⟨m, fun _ => 0, ρ⟩ (fun r => ∀ c : Dev nD,
      r.2.mem ((c.tc : Thread nD τ).loc main_v4)
        = (fun _ => Ideal.div (∑ b : Fin 4, kerBatch epsW twoW (fun ch n => img0 m c (ix3 b ch n)) (fun ch n => img1 m c (ix3 b ch n)))
            (Ideal.ofBits .f32 0x4C800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.GramLoss.Ker
end
-- ==== Proof.lean ====
/-
  A cosine self-similarity loss, computed two ways, is one number.

  Both programs take two inputs of four images each (4 channels × 64 × 64 positions, read as 4 × 4096), scale every
  position's channel vector to unit Euclidean length (the length clamped from below by a small constant), and
  compare the two inputs' self-similarity.  The reference forms, per image, the 4096 × 4096 Gram matrices over the
  positions, `A = UᵀU` and `B = VᵀV`, sums the squares of `A − B` over all images and divides by `2²⁶`.  The kernel
  never forms them: per image it takes the three 4 × 4 Gram matrices over the channels, `UUᵀ`, `UVᵀ`, `VVᵀ`, stores
  `‖UUᵀ‖² − 2‖UVᵀ‖² + ‖VVᵀ‖²`, and the host adds the four stored numbers and divides by the same `2²⁶`.

  For real matrices `‖UᵀU − VᵀV‖² = ‖UUᵀ‖² − 2‖UVᵀ‖² + ‖VVᵀ‖²` (expand the square; each term is a trace that is
  invariant under the cyclic exchange of the two index sets).  On the extended reals this needs the entries to be
  real: the precondition says the inputs are finite, the clamp is positive, so every scaled entry is a real number,
  and the identity is the real one under the coercion (`GramLoss.refBatch_eq_kerBatch`).  Both programs spell the
  clamp, the reshape of the inputs and the final division the same way, so these are carried as they stand.

  The kernel's and its idealization's frames and the reference's run are the generated ones; the ideal pass rewrote
  nothing, so `preserves` is trivial.
-/
import proofs.«146978_j5145370820963_2_alg».proof.Defs
import proofs.«146978_j5145370820963_2_alg».proof.Proof.Gen.Kernel
import proofs.«146978_j5145370820963_2_alg».proof.Proof.Gen.Kernel.Frame
import proofs.«146978_j5145370820963_2_alg».proof.Proof.Gen.KernelIdeal
import proofs.«146978_j5145370820963_2_alg».proof.Proof.Gen.KernelIdeal.Frame
import proofs.«146978_j5145370820963_2_alg».proof.Proof.Gen.ReferenceIdeal
import proofs.«146978_j5145370820963_2_alg».proof.Proof.Gen.Pre_finite_inputs
import proofs.«146978_j5145370820963_2_alg».proof.Proof.Gen.ReferenceIdeal.Run
import proofs.«146978_j5145370820963_2_alg».proof.Proof.Gen.ReferenceIdeal.Read
import proofs.«146978_j5145370820963_2_alg».proof.Proof.GramAlgebra
import proofs.«146978_j5145370820963_2_alg».proof.Proof.RefGram
import proofs.«146978_j5145370820963_2_alg».proof.Proof.FiniteInputs
import proofs.«146978_j5145370820963_2_alg».proof.Proof.KerRun
import Idealize.ShloMosaic.Adequacy
import Idealize.ShloMosaic.Init

noncomputable section

open scoped BigOperators

namespace Cert.Proof

open Idealize.ShloMosaic Idealize.ShloMosaic.TcCoe Idealize.ShloMosaic.ValueIdx Idealize.SL.Sem
open Cert.GramLoss

theorem frame_k : Cert.frame_Kernel := fun m ρ _ => Cert.Kernel.Gen.frame m ρ
theorem frame_ki : Cert.frame_KernelIdeal := fun m ρ _ => Cert.KernelIdeal.Gen.frame m ρ
/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- A reshaped finite input is finite: the reshape reads the input at an index. -/
theorem reshaped_real (x : (⟨Cert.ReferenceIdeal.S4x4x64x64, .f32⟩ : BufTy).Contents (Elt Ideal))
    (hx : ∀ j, ∃ r : ℝ, x j = (r : EReal)) (i : Cert.ReferenceIdeal.S4x4x4096.Idx) :
    ∃ r : ℝ, Cert.ReferenceIdeal.Read.val_main_v0 (F := Ideal) x i = (r : EReal) := by
  rw [Cert.ReferenceIdeal.Read.val_main_v0_apply]; exact hx _
theorem reshaped_real' (x : (⟨Cert.ReferenceIdeal.S4x4x64x64, .f32⟩ : BufTy).Contents (Elt Ideal))
    (hx : ∀ j, ∃ r : ℝ, x j = (r : EReal)) (i : Cert.ReferenceIdeal.S4x4x4096.Idx) :
    ∃ r : ℝ, Cert.ReferenceIdeal.Read.val_main_v6 (F := Ideal) x i = (r : EReal) := by
  rw [Cert.ReferenceIdeal.Read.val_main_v6_apply]; exact hx _

/-- Both programs end at one number: the kernel's run leaves the sum of the four per-image numbers over `2²⁶`, the
    reference's the sum of the four squared Gram distances over `2²⁶`, and image by image the two are equal because
    the inputs are finite. -/
theorem algebraic : Cert.algebraic_KernelIdeal_ReferenceIdeal := by
  intro m ρ m' ρ' hpre hagree
  refine ⟨_, Cert.GramLoss.Ker.ker_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext i
  rw [Cert.GramLoss.Ref.ref_value]
  obtain ⟨ε, hε, hεw⟩ := eps_word
  obtain ⟨hx0, hx1⟩ := Cert.GramLoss.Finite.real_of_pre _ _ (hpre c)
  refine congrArg (fun s => Ideal.div s (Ideal.ofBits .f32 0x4C800000#32)) (Finset.sum_congr rfl fun b _ => ?_)
  show refBatch (Ideal.ofBits .f32 0x2B8CBCCC#32)
      (fun (ch : Fin 4) (n : Fin 4096) => Cert.ReferenceIdeal.Read.val_main_v0 (F := Ideal) (m ((c.tc : Thread Cert.KernelIdeal.nD Cert.KernelIdeal.τ).loc Cert.KernelIdeal.main_arg0)) (ix3 b ch n))
      (fun (ch : Fin 4) (n : Fin 4096) => Cert.ReferenceIdeal.Read.val_main_v6 (F := Ideal) (m ((c.tc : Thread Cert.KernelIdeal.nD Cert.KernelIdeal.τ).loc Cert.KernelIdeal.main_arg1)) (ix3 b ch n))
    = kerBatch (Ideal.ofBits .f32 0x2B8CBCCC#32) (Ideal.ofBits .f32 0x40000000#32)
      (fun (ch : Fin 4) (n : Fin 4096) => Cert.ReferenceIdeal.Read.val_main_v0 (F := Ideal) (m ((c.tc : Thread Cert.KernelIdeal.nD Cert.KernelIdeal.τ).loc Cert.KernelIdeal.main_arg0)) (ix3 b ch n))
      (fun (ch : Fin 4) (n : Fin 4096) => Cert.ReferenceIdeal.Read.val_main_v6 (F := Ideal) (m ((c.tc : Thread Cert.KernelIdeal.nD Cert.KernelIdeal.τ).loc Cert.KernelIdeal.main_arg1)) (ix3 b ch n))
  rw [two_word, hεw]
  exact refBatch_eq_kerBatch ε hε _ _ (fun ch n => reshaped_real _ hx0 _) (fun ch n => reshaped_real' _ hx1 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
